-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x384 : Shape := ⟨2, ![128, 384]⟩
abbrev S384 : Shape := ⟨1, ![384]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S128x384 .f32) (main_arg5 : FVec F S384 .f32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_v19 : FVec F S128x384 .f32 := Host.absf main_arg4
  let main_cst_6 : FVec F S_ .f32 := constant S_ .f32 0x7F800000#32
  let main_v20 : FVec F S128x384 .f32 := broadcastInDim S128x384 ![] bcast_S_S128x384 main_cst_6
  let main_v21 : IVec S128x384 1 := cmpf .olt main_v19 main_v20
  let main_c_7 : IVec S_ 1 := constantI S_ 1 1#1
  let main_v22 : IVec S_ 1 := (fun x v => Host.reduce IntOp.andi x v reducesTo_S128x384_S_d0_1 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  main_v28

def fn {F : FTy → Type} [FloatOps F] (main_arg0 : FVec F S50000x128 .f32) (main_arg1 : FVec F S50000x128 .f32) (main_arg2 : FVec F S128x384 .f32) (main_arg3 : FVec F S384 .f32) (main_arg4 : FVec F S128x384 .f32) (main_arg5 : FVec F S384 .f32) (main_arg6 : IVec S800000 32) (main_arg7 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x384 .f32 := Host.absf main_arg2
  let main_cst_2 : FVec F S_ .f32 := constant S_ .f32 0x7F800000#32
  let main_v10 : FVec F S128x384 .f32 := broadcastInDim S128x384 ![] bcast_S_S128x384 main_cst_2
  let main_v11 : IVec S128x384 1 := cmpf .olt main_v9 main_v10
  let main_c_3 : IVec S_ 1 := constantI S_ 1 1#1
  let main_v12 : IVec S_ 1 := (fun x v => Host.reduce IntOp.andi x v reducesTo_S128x384_S_d0_1 h_S_) main_v11 main_c_3
  let main_v13 : IVec S_ 1 := andi main_v8 main_v12
  let main_v14 : FVec F S384 .f32 := Host.absf main_arg3
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg4 main_arg5 main_v13 main_v16
-- ==== Kernel.lean ====
abbrev S50000x128 : Shape := ⟨2, ![50000, 128]⟩
abbrev S128x384 : Shape := ⟨2, ![128, 384]⟩
abbrev S384 : Shape := ⟨1, ![384]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S2000x128 : Shape := ⟨2, ![2000, 128]⟩
abbrev S2000x384 : Shape := ⟨2, ![2000, 384]⟩
abbrev S1x384 : Shape := ⟨2, ![1, 384]⟩

abbrev nBuf : Space → Nat
  | .hbm => 67
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128x384, .f32⟩
  | .hbm, ⟨3, _⟩ => ⟨S384, .f32⟩
  | .hbm, ⟨4, _⟩ => ⟨S128x384, .f32⟩
  | .hbm, ⟨5, _⟩ => ⟨S384, .f32⟩
  | .hbm, ⟨6, _⟩ => ⟨S800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S50000x1, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S50000x1, .f32⟩
  | .hbm, ⟨64, _⟩ => ⟨S50000x128, .f32⟩
  | .hbm, ⟨65, _⟩ => ⟨S50000x128, .f32⟩
  | .hbm, ⟨66, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x384, .f32⟩
  | .local _ .vmem, ⟨7, _⟩ => ⟨S384, .f32⟩
  | .local _ .vmem, ⟨8, _⟩ => ⟨S128x384, .f32⟩
  | .local _ .vmem, ⟨9, _⟩ => ⟨S384, .f32⟩
  | .local _ .vmem, ⟨10, _⟩ => ⟨S2000x128, .f32⟩
  | .local _ .vmem, ⟨11, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  inb_S384_S384_0 : ∀ a, (![0] : Fin 1 → Nat) a + S384.size a ≤ S384.size a
  h_S384 : 0 < S384.numel
  shapeCasts_S384_S1x384 : S384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .f32 = 32 ∨ (Rect.block (s := S128x384) S128x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384.size a ≤ S384.size a
  hwx0_4 : ∀ i : grid0.Coords, EltTy.bits .f32 = 32 ∨ (Rect.block (s := S384) S384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x384.size a ≤ S128x384.size a
  hwx0_5 : ∀ i : grid0.Coords, EltTy.bits .f32 = 32 ∨ (Rect.block (s := S128x384) S128x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S384.size a ≤ S384.size a
  hwx0_6 : ∀ i : grid0.Coords, EltTy.bits .f32 = 32 ∨ (Rect.block (s := S384) S384.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_v26) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v43) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x384 : Shape := ⟨2, ![128, 384]⟩
abbrev S384 : Shape := ⟨1, ![384]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x384 : Shape := ⟨2, ![50000, 384]⟩
abbrev S1x384 : Shape := ⟨2, ![1, 384]⟩

abbrev nBuf : Space → Nat
  | .hbm => 107
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S128x384, .f32⟩
  | .hbm, ⟨3, _⟩ => ⟨S384, .f32⟩
  | .hbm, ⟨4, _⟩ => ⟨S128x384, .f32⟩
  | .hbm, ⟨5, _⟩ => ⟨S384, .f32⟩
  | .hbm, ⟨6, _⟩ => ⟨S800000, .i32⟩
  | .hbm, ⟨7, _⟩ => ⟨S800000, .i32⟩
  | .hbm, ⟨8, _⟩ => ⟨S_, .f32⟩
  | .hbm, ⟨9, _⟩ => ⟨S800000, .f32⟩
  | .hbm, ⟨10, _⟩ => ⟨S_, .f32⟩
  | .hbm, ⟨11, _⟩ => ⟨S50000, .f32⟩
  | .hbm, ⟨12, _⟩ => ⟨S800000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S50000x128, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S50000x1, .f32⟩
  | .hbm, ⟨45, _⟩ => ⟨S50000x128, .f32⟩
  | .hbm, ⟨46, _⟩ => ⟨S50000x128, .f32⟩
  | .hbm, ⟨47, _⟩ => ⟨S50000x384, .f32⟩
  | .hbm, ⟨48, _⟩ => ⟨S1x384, .f32⟩
  | .hbm, ⟨49, _⟩ => ⟨S50000x384, .f32⟩
  | .hbm, ⟨50, _⟩ => ⟨S50000x384, .f32⟩
  | .hbm, ⟨51, _⟩ => ⟨S50000x1, .f32⟩
  | .hbm, ⟨52, _⟩ => ⟨S50000x128, .f32⟩
  | .hbm, ⟨53, _⟩ => ⟨S50000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S50000x1, .f32⟩
  | .hbm, ⟨68, _⟩ => ⟨S50000x128, .f32⟩
  | .hbm, ⟨69, _⟩ => ⟨S50000x128, .f32⟩
  | .hbm, ⟨70, _⟩ => ⟨S50000x384, .f32⟩
  | .hbm, ⟨71, _⟩ => ⟨S1x384, .f32⟩
  | .hbm, ⟨72, _⟩ => ⟨S50000x384, .f32⟩
  | .hbm, ⟨73, _⟩ => ⟨S50000x384, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S50000x128, .f32⟩
  | .hbm, ⟨103, _⟩ => ⟨S50000x128, .f32⟩
  | .hbm, ⟨104, _⟩ => ⟨S50000x128, .f32⟩
  | .hbm, ⟨105, _⟩ => ⟨S50000x128, .f32⟩
  | .hbm, ⟨106, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_9 : Ref sig .tc := ⟨.hbm, 83, rfl⟩
abbrev main_v60 : Ref sig .tc := ⟨.hbm, 84, rfl⟩
abbrev main_v61 : Ref sig .tc := ⟨.hbm, 85, rfl⟩
abbrev main_cst_10 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_v68 : Ref sig .tc := ⟨.hbm, 94, rfl⟩
abbrev main_cst_12 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_13 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x384_S50000x384_1_0_0_1_n_n_wf : DotDims.WF S50000x128 S128x384 S50000x384 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf

class Facts : Prop extends Facts₀ where

variable [Facts]
-- ==== Proof.GruSpec.lean ====
/-
  The gated recurrent cell, as one function of its arrays, element by element, on the extended reals.

  For a node p and a hidden column q (of 128), with aI and aH the two aggregated feature tables [50000, 128],
  hx the previous hidden state [50000, 128], W_i, W_h the two [128, 384] weight matrices and b_i, b_h their biases:

      il(j) = sum_k aI(p, k) * W_i(k, j) + b_i(j)          hl(j) = sum_k aH(p, k) * W_h(k, j) + b_h(j)      (j < 384)
      r = logistic (il(q)       + hl(q))
      z = logistic (il(128 + q) + hl(128 + q))
      n = tanh     (il(256 + q) + r * hl(256 + q))
      out(p, q) = (1 - z) * n + z * hx(p, q)

  The 384 columns are three bands of 128: the reset gate, the update gate and the candidate state. Row p of the
  result depends on row p of aI, aH and hx only, which is why a tile of rows can be computed from the same tile of
  rows of the three tables. The literal 1.0 of "1 - z" is kept as its word: both programs spell the same word.
-/
import Idealize.ShloMosaic.PureOps.Ideal
import Idealize.ShloMosaic.Lib.ValueIdx

noncomputable section

open scoped BigOperators

namespace Cert.Gru

open Idealize.ShloMosaic Idealize.ShloMosaic.ValueIdx

/-- A table with 128 columns and `n` rows. -/
abbrev Tab (n : Nat) : Type := (⟨2, ![n, 128]⟩ : Shape).Idx → EReal
/-- A [128, 384] weight matrix. -/
abbrev Mat : Type := (⟨2, ![128, 384]⟩ : Shape).Idx → EReal
/-- A bias of 384 entries. -/
abbrev Bias : Type := (⟨1, ![384]⟩ : Shape).Idx → EReal

/-- Column `q` of the first band of 128 columns (the reset gate's). -/
abbrev band0 (q : Fin 128) : Fin 384 := ⟨q.val, Nat.lt_of_lt_of_le q.isLt (by decide)⟩
/-- Column `q` of the second band (the update gate's). -/
abbrev band1 (q : Fin 128) : Fin 384 := ⟨128 + q.val, by have := q.isLt; omega⟩
/-- Column `q` of the third band (the candidate state's). -/
abbrev band2 (q : Fin 128) : Fin 384 := ⟨256 + q.val, by have := q.isLt; omega⟩

/-- The literal 1.0, as both programs spell it. -/
abbrev one : EReal := Ideal.ofBits .f32 0x3F800000#32

/-- One row of 128 features through a [128, 384] linear layer: column `j` of `row * W + b`. -/
def lin (row : Fin 128 → EReal) (W : Mat) (b : Bias) (j : Fin 384) : EReal :=
  (∑ k : Fin 128, row k * W (ix2 k j)) + b (ix1 j)

/-- The cell at one element: from a row of each aggregated table, the previous hidden value `h` at the element,
    the two layers, and the hidden column `q`. -/
def gate (rowI rowH : Fin 128 → EReal) (h : EReal) (Wi : Mat) (bi : Bias) (Wh : Mat) (bh : Bias) (q : Fin 128) : EReal :=
  (one - Ideal.logistic (lin rowI Wi bi (band1 q) + lin rowH Wh bh (band1 q)))
      * Ideal.tanh (lin rowI Wi bi (band2 q)
          + Ideal.logistic (lin rowI Wi bi (band0 q) + lin rowH Wh bh (band0 q)) * lin rowH Wh bh (band2 q))
    + Ideal.logistic (lin rowI Wi bi (band1 q) + lin rowH Wh bh (band1 q)) * h

/-- The cell over a table of `n` rows: element (p, q) from row p of the three tables. -/
def cell (n : Nat) (aI aH hx : Tab n) (Wi : Mat) (bi : Bias) (Wh : Mat) (bh : Bias) : Tab n :=
  fun i => gate (fun k => aI (ix2 (i 0) k)) (fun k => aH (ix2 (i 0) k)) (hx i) Wi bi Wh bh (i 1)

theorem cell_apply (n : Nat) (aI aH hx : Tab n) (Wi : Mat) (bi : Bias) (Wh : Mat) (bh : Bias) (p : Fin n) (q : Fin 128) :
    cell n aI aH hx Wi bi Wh bh (ix2 p q)
      = gate (fun k => aI (ix2 p k)) (fun k => aH (ix2 p k)) (hx (ix2 p q)) Wi bi Wh bh q := rfl

/-- The word of 1.0 denotes the real number one. -/
theorem one_eq : one = 1 := by
  simp [one, Ideal.ofBits, Ideal.ieee, -EReal.coe_mul]; norm_num

/-- "1 / (1 + e^(-x))" spelt with the word of 1.0 is the logistic function. -/
theorem logistic_spelt (x : EReal) : Ideal.div one (one + Ideal.exp (-x)) = Ideal.logistic x := by
  rw [one_eq]; rfl

end Cert.Gru

end
-- ==== Proof.GruPayload.lean ====
/-
  What the kernel's body stores for one tile of 2000 rows, read at an element.

  The body loads a tile of each aggregated table (x0, x10), the same tile of the previous hidden state (x33), and both
  layers whole (W_i, b_i as x3, x6; W_h, b_h as x13, x16). It rounds the tiles and the weights to bf16 — the identity on the
  extended reals —, multiplies each tile by its weights on the matrix unit into a zero accumulator, adds the bias laid as a
  row and repeated over the 2000 rows, cuts each [2000, 384] product into its three bands of 128 columns, and combines
  them: reset gate, update gate, candidate, blend with the hidden state.

  Read at row y and column q this is the cell of GruSpec on row y of the two tiles: the matrix product at (y, j) is the
  sum over k of tile(y, k) * W(k, j), a band at (y, q) is the product at (y, 128 * band + q), the bias row at (y, j) is
  b(j). Nothing here needs finiteness: no sum is regrouped and no factor is moved.
-/
import proofs.«139402_j29764123361454_1_alg».proof.Proof.Gen.KernelIdeal.Skeleton
import proofs.«139402_j29764123361454_1_alg».proof.Proof.GruSpec
import Idealize.ShloMosaic.Lib.Pipeline.Value
import Idealize.ShloMosaic.Lib.ValueLayout
import Idealize.ShloMosaic.PureOps.Ideal.Laws

noncomputable section

open scoped BigOperators

namespace Cert.Gru.Body

open Cert.KernelIdeal Cert.KernelIdeal.Facts₀ Cert.KernelIdeal.Facts
open Idealize.ShloMosaic Idealize.ShloMosaic.ValueIdx

/-- One linear layer on a tile: the tile (rounded to bf16) times the weights (rounded to bf16) on the matrix unit into a
    zero accumulator, plus the bias as a row repeated over the tile's rows. -/
def linTile (x : Vec Ideal S2000x128 .f32) (W : Vec Ideal S128x384 .f32) (b : Vec Ideal S384 .f32) : FVec Ideal S2000x384 .f32 :=
  addf (matmul dot_S2000x128_S128x384_S2000x384_1_0_0_1_n_n none
          (truncf .bf16 (shapeCast S2000x128 x shapeCasts_S2000x128_S2000x128) bitsLt_bf16_f32)
          (truncf .bf16 W bitsLt_bf16_f32) (constant S2000x384 .f32 0x00000000#32))
       (broadcastTo S2000x384 (shapeCast S1x384 b shapeCasts_S384_S1x384) broadcasts_S1x384_S2000x384)

/-- The gates on a tile, from the two layers' [2000, 384] outputs and the hidden state's tile. -/
def cellTile (vi vh : FVec Ideal S2000x384 .f32) (h : Vec Ideal S2000x128 .f32) : FVec Ideal S2000x128 .f32 :=
  addf
    (mulf
      (subf (broadcast S2000x128 (Scalar.ofBits .f32 0x3F800000#32))
        (logistic (addf (extractStridedSlice S2000x128 ![0, 128] vi slices_S2000x384_o0_128_S2000x128)
                        (extractStridedSlice S2000x128 ![0, 128] vh slices_S2000x384_o0_128_S2000x128))))
      (tanh (addf (extractStridedSlice S2000x128 ![0, 256] vi slices_S2000x384_o0_256_S2000x128)
                  (mulf (logistic (addf (extractStridedSlice S2000x128 ![0, 0] vi slices_S2000x384_o0_0_S2000x128)
                                        (extractStridedSlice S2000x128 ![0, 0] vh slices_S2000x384_o0_0_S2000x128)))
                        (extractStridedSlice S2000x128 ![0, 256] vh slices_S2000x384_o0_256_S2000x128)))))
    (mulf (logistic (addf (extractStridedSlice S2000x128 ![0, 128] vi slices_S2000x384_o0_128_S2000x128)
                          (extractStridedSlice S2000x128 ![0, 128] vh slices_S2000x384_o0_128_S2000x128))) h)

/-- The body's one stored value is the gates of the two linear layers of its loads. -/
theorem payload_eq (x0 : Vec Ideal S2000x128 .f32) (x3 : Vec Ideal S128x384 .f32) (x6 : Vec Ideal S384 .f32)
    (x10 : Vec Ideal S2000x128 .f32) (x13 : Vec Ideal S128x384 .f32) (x16 : Vec Ideal S384 .f32) (x33 : Vec Ideal S2000x128 .f32) :
    Gen.k0_pay1 (F := Ideal) x0 x3 x6 x10 x13 x16 x33 = cellTile (linTile x0 x3 x6) (linTile x10 x13 x16) x33 := rfl

/-! ## The matrix product at an element -/

theorem lhs_row (i : S2000x384.Idx) (k : dot_S2000x128_S128x384_S2000x384_1_0_0_1_n_n.contr.Idx) : (dot_S2000x128_S128x384_S2000x384_1_0_0_1_n_n.lhsIdx i k 0).val = (i 0).val := by
  unfold DotDims.lhsIdx
  rw [dif_neg (show ¬(0 : Fin S2000x128.rank) ∈ dot_S2000x128_S128x384_S2000x384_1_0_0_1_n_n.lhsBatch by decide),
    dif_pos (show (0 : Fin S2000x128.rank) ∈ dot_S2000x128_S128x384_S2000x384_1_0_0_1_n_n.lhsNonContracting by decide)]
  rfl

theorem rhs_col (i : S2000x384.Idx) (k : dot_S2000x128_S128x384_S2000x384_1_0_0_1_n_n.contr.Idx) : (dot_S2000x128_S128x384_S2000x384_1_0_0_1_n_n.rhsIdx i k 1).val = (i 1).val := by
  unfold DotDims.rhsIdx
  rw [dif_neg (show ¬(1 : Fin S128x384.rank) ∈ dot_S2000x128_S128x384_S2000x384_1_0_0_1_n_n.rhsBatch by decide),
    dif_pos (show (1 : Fin S128x384.rank) ∈ dot_S2000x128_S128x384_S2000x384_1_0_0_1_n_n.rhsNonContracting by decide)]
  rfl

/-- The tile's product into a zero accumulator, at row y and column j, is the row of the tile against the column of the
    weights. -/
theorem matmul_tile_apply (l : FVec Ideal S2000x128 .bf16) (r : FVec Ideal S128x384 .bf16) (y : Fin 2000) (j : Fin 384) :
    matmul dot_S2000x128_S128x384_S2000x384_1_0_0_1_n_n none l r (constant S2000x384 .f32 0x00000000#32) (ix2 y j) = ∑ k : Fin 128, l (ix2 y k) * r (ix2 k j) := by
  simp only [matmul]
  rw [Ideal.matmul_constant_zero_apply, ← Equiv.sum_comp (ValueIdx.contrEquiv1 dot_S2000x128_S128x384_S2000x384_1_0_0_1_n_n 128 rfl rfl).symm]
  refine Finset.sum_congr rfl fun k _ => ?_
  have hk := ValueIdx.contrEquiv1_symm_val dot_S2000x128_S128x384_S2000x384_1_0_0_1_n_n 128 rfl rfl k
  have el : dot_S2000x128_S128x384_S2000x384_1_0_0_1_n_n.lhsIdx (ix2 y j) ((ValueIdx.contrEquiv1 dot_S2000x128_S128x384_S2000x384_1_0_0_1_n_n 128 rfl rfl).symm k) = ix2 y k := funext fun a => Fin.ext (by
    match a with
    | ⟨0, _⟩ => exact lhs_row _ _
    | ⟨1, _⟩ => exact (dot_S2000x128_S128x384_S2000x384_1_0_0_1_n_n.lhsIdx_val_of_single rfl _ _).trans hk)
  have er : dot_S2000x128_S128x384_S2000x384_1_0_0_1_n_n.rhsIdx (ix2 y j) ((ValueIdx.contrEquiv1 dot_S2000x128_S128x384_S2000x384_1_0_0_1_n_n 128 rfl rfl).symm k) = ix2 k j := funext fun a => Fin.ext (by
    match a with
    | ⟨0, _⟩ => exact (dot_S2000x128_S128x384_S2000x384_1_0_0_1_n_n.rhsIdx_val_of_single rfl _ _).trans hk
    | ⟨1, _⟩ => exact rhs_col _ _)
  rw [el, er]

/-- A linear layer on a tile, at row y and column j, is the layer on row y of the tile. -/
theorem linTile_apply (x : Vec Ideal S2000x128 .f32) (W : Vec Ideal S128x384 .f32) (b : Vec Ideal S384 .f32) (y : Fin 2000) (j : Fin 384) :
    linTile x W b (ix2 y j) = Cert.Gru.lin (fun k => x (ix2 y k)) W b j := by
  unfold linTile Cert.Gru.lin
  rw [addf_apply, matmul_tile_apply, broadcastTo_1b_ab_apply, shapeCast_a_1a_apply, shapeCast_self]
  rfl

/-! ## The gates at an element -/

/-- The gates on a tile at row y and column q, from the two layers' outputs at row y and the three bands' columns. -/
theorem cellTile_apply (vi vh : FVec Ideal S2000x384 .f32) (h : Vec Ideal S2000x128 .f32) (y : Fin 2000) (q : Fin 128) :
    cellTile vi vh h (ix2 y q)
      = (Cert.Gru.one - Ideal.logistic (vi (ix2 y (Cert.Gru.band1 q)) + vh (ix2 y (Cert.Gru.band1 q))))
          * Ideal.tanh (vi (ix2 y (Cert.Gru.band2 q))
              + Ideal.logistic (vi (ix2 y (Cert.Gru.band0 q)) + vh (ix2 y (Cert.Gru.band0 q))) * vh (ix2 y (Cert.Gru.band2 q)))
        + Ideal.logistic (vi (ix2 y (Cert.Gru.band1 q)) + vh (ix2 y (Cert.Gru.band1 q))) * h (ix2 y q) := by
  have s0 : ∀ v : FVec Ideal S2000x384 .f32,
      extractStridedSlice S2000x128 ![0, 0] v slices_S2000x384_o0_0_S2000x128 (ix2 y q) = v (ix2 y (Cert.Gru.band0 q)) :=
    fun v => slice2_axis1_apply 0 v _ y q _ (by show q.val = 0 + q.val; omega)
  have s1 : ∀ v : FVec Ideal S2000x384 .f32,
      extractStridedSlice S2000x128 ![0, 128] v slices_S2000x384_o0_128_S2000x128 (ix2 y q) = v (ix2 y (Cert.Gru.band1 q)) :=
    fun v => slice2_axis1_apply 128 v _ y q _ rfl
  have s2 : ∀ v : FVec Ideal S2000x384 .f32,
      extractStridedSlice S2000x128 ![0, 256] v slices_S2000x384_o0_256_S2000x128 (ix2 y q) = v (ix2 y (Cert.Gru.band2 q)) :=
    fun v => slice2_axis1_apply 256 v _ y q _ rfl
  show (Cert.Gru.one - Ideal.logistic (extractStridedSlice S2000x128 ![0, 128] vi slices_S2000x384_o0_128_S2000x128 (ix2 y q)
            + extractStridedSlice S2000x128 ![0, 128] vh slices_S2000x384_o0_128_S2000x128 (ix2 y q)))
        * Ideal.tanh (extractStridedSlice S2000x128 ![0, 256] vi slices_S2000x384_o0_256_S2000x128 (ix2 y q)
            + Ideal.logistic (extractStridedSlice S2000x128 ![0, 0] vi slices_S2000x384_o0_0_S2000x128 (ix2 y q)
                + extractStridedSlice S2000x128 ![0, 0] vh slices_S2000x384_o0_0_S2000x128 (ix2 y q))
              * extractStridedSlice S2000x128 ![0, 256] vh slices_S2000x384_o0_256_S2000x128 (ix2 y q))
      + Ideal.logistic (extractStridedSlice S2000x128 ![0, 128] vi slices_S2000x384_o0_128_S2000x128 (ix2 y q)
            + extractStridedSlice S2000x128 ![0, 128] vh slices_S2000x384_o0_128_S2000x128 (ix2 y q)) * h (ix2 y q) = _
  rw [s0 vi, s0 vh, s1 vi, s1 vh, s2 vi, s2 vh]

/-- THE BODY'S STORED VALUE AT AN ELEMENT: the cell on row y of the two tiles, the hidden value at (y, q), column q. -/
theorem payload_apply (x0 : Vec Ideal S2000x128 .f32) (x3 : Vec Ideal S128x384 .f32) (x6 : Vec Ideal S384 .f32)
    (x10 : Vec Ideal S2000x128 .f32) (x13 : Vec Ideal S128x384 .f32) (x16 : Vec Ideal S384 .f32) (x33 : Vec Ideal S2000x128 .f32)
    (y : Fin 2000) (q : Fin 128) :
    Gen.k0_pay1 (F := Ideal) x0 x3 x6 x10 x13 x16 x33 (ix2 y q)
      = Cert.Gru.gate (fun k => x0 (ix2 y k)) (fun k => x10 (ix2 y k)) (x33 (ix2 y q)) x3 x6 x13 x16 q := by
  rw [payload_eq, cellTile_apply, linTile_apply, linTile_apply, linTile_apply, linTile_apply, linTile_apply, linTile_apply]
  rfl

/-- The same at an index `j` given with its two coordinates: row y, column q. -/
theorem payload_at (x0 : Vec Ideal S2000x128 .f32) (x3 : Vec Ideal S128x384 .f32) (x6 : Vec Ideal S384 .f32)
    (x10 : Vec Ideal S2000x128 .f32) (x13 : Vec Ideal S128x384 .f32) (x16 : Vec Ideal S384 .f32) (x33 : Vec Ideal S2000x128 .f32)
    (j : S2000x128.Idx) (y : Fin 2000) (q : Fin 128) (hj : j = ix2 y q) :
    Gen.k0_pay1 (F := Ideal) x0 x3 x6 x10 x13 x16 x33 j
      = Cert.Gru.gate (fun k => x0 (ix2 y k)) (fun k => x10 (ix2 y k)) (x33 j) x3 x6 x13 x16 q := by
  subst hj
  exact payload_apply x0 x3 x6 x10 x13 x16 x33 y q

end Cert.Gru.Body

end
-- ==== Proof.GruBlocks.lean ====
/-
  From tiles to the whole table: after the kernel has run, its result array is the cell of GruSpec of the seven arrays its
  windows read, as the region finds them.

  The grid has 25 points. At point t the three row-tiled windows (the two aggregated tables and the hidden state) show
  rows 2000 t … 2000 t + 1999, the four whole windows (weights and biases) show their arrays entire, and the output
  window writes back rows 2000 t … 2000 t + 1999 of the result. A tile's element (y, q) sits at row 2000 t + y and
  column q of its table, for the inputs and for the output alike, so what the body stores for the tile — the cell on row
  y of the two tiles — is the cell on row 2000 t + y of the two tables: the written block is the block of ONE table, the
  cell of the whole arrays. The 25 blocks cover all 50000 rows (row r is in block r / 2000), so the result array ends
  holding that table.

  The per-tile statement is made for arbitrary arrays and only afterwards used at the arrays the region finds: those two
  aggregated tables are long host computations, and nothing here looks inside them.
-/
import proofs.«139402_j29764123361454_1_alg».proof.Proof.Gen.KernelIdeal.Value
import proofs.«139402_j29764123361454_1_alg».proof.Proof.GruPayload
import Idealize.ShloMosaic.Lib.Pipeline.Value

set_option maxRecDepth 16384

noncomputable section

namespace Cert.Gru.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl
theorem hz1 : (![0] : Fin 1 → Nat) = fun _ => 0 := funext fun a => by fin_cases a <;> rfl

/-- The cell depends on its eight arguments only through their values. -/
theorem gate_congr {rI rI' rH rH' : Fin 128 → EReal} {h h' : EReal} {Wi Wi' : Cert.Gru.Mat} {bi bi' : Cert.Gru.Bias}
    {Wh Wh' : Cert.Gru.Mat} {bh bh' : Cert.Gru.Bias} {q q' : Fin 128}
    (h1 : ∀ k, rI k = rI' k) (h2 : ∀ k, rH k = rH' k) (h3 : h = h') (h4 : Wi = Wi') (h5 : bi = bi') (h6 : Wh = Wh')
    (h7 : bh = bh') (h8 : q = q') :
    Cert.Gru.gate rI rH h Wi bi Wh bh q = Cert.Gru.gate rI' rH' h' Wi' bi' Wh' bh' q' := by
  obtain rfl : rI = rI' := funext h1
  obtain rfl : rH = rH' := funext h2
  subst h3 h4 h5 h6 h7 h8
  rfl

/-- The printed index maps over the grid: at point t the three row-tiled inputs and the output are at block (t, 0),
    the weights and biases at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- ONE TILE, for arbitrary arrays: what the body leaves in the output window's buffer from the seven windows' blocks at
    point t is block t of the cell of the seven arrays. -/
theorem tile (A0 A1 A2 : S50000x128.Idx → Elt Ideal .f32) (A3 : S128x384.Idx → Elt Ideal .f32)
    (A4 : S384.Idx → Elt Ideal .f32) (A5 : S128x384.Idx → Elt Ideal .f32) (A6 : S384.Idx → Elt Ideal .f32)
    (t : Fin cfg0.N) :
    (cfg0.win 7).cut (grid0.coords t)
        (out0_7 (((cfg0.win 0).blk t).view.read (Elt Ideal) A0) (((cfg0.win 1).blk t).view.read (Elt Ideal) A1)
                (((cfg0.win 2).blk t).view.read (Elt Ideal) A2) (((cfg0.win 3).blk t).view.read (Elt Ideal) A3)
                (((cfg0.win 4).blk t).view.read (Elt Ideal) A4) (((cfg0.win 5).blk t).view.read (Elt Ideal) A5)
                (((cfg0.win 6).blk t).view.read (Elt Ideal) A6))
      = ((cfg0.win 7).blk t).view.read (Elt Ideal) (Cert.Gru.cell 50000 A0 A1 A2 A3 A4 A5 A6) := by
  unfold out0_7
  rw [View.canon_unit_zero hz]
  simp only [View.ld_unit_zero (S := S2000x128) hz, View.ld_unit_zero (S := S128x384) hz, View.ld_unit_zero (S := S384) hz1]
  obtain ⟨e00, e01, e10, e11, e20, e21, e30, e31, e40, e50, e51, e60, e70, e71⟩ := idx_facts t
  funext j
  have hj0 : (j 0).val < 2000 := (j 0).isLt
  have hj1 : (j 1).val < 128 := (j 1).isLt
  have hj : (win0 7).xinj (grid0.coords t) j = ix2 (⟨(j 0).val, hj0⟩ : Fin 2000) (⟨(j 1).val, hj1⟩ : Fin 128) :=
    funext fun a => by match a with | ⟨0, _⟩ => rfl | ⟨1, _⟩ => rfl
  show Gen.k0_pay1 _ _ _ _ _ _ _ ((win0 7).xinj (grid0.coords t) j) = _
  rw [Body.payload_at _ _ _ _ _ _ _ _ _ _ hj]
  show _ = Cert.Gru.gate _ _ _ _ _ _ _ _
  refine gate_congr (fun k => ?_) (fun k => ?_) ?_ ?_ ?_ ?_ ?_ ?_
  · show A0 (((View.whole main_v26).slice ((win0 0).rect t)).emb (ix2 ⟨(j 0).val, hj0⟩ k)) = A0 (ix2 ((((View.whole main_v43).slice ((win0 7).rect t)).emb j) 0) k)
    refine congrArg A0 (funext fun a => Fin.ext ?_)
    match a with
    | ⟨0, _⟩ => show win0_0.index t (0 : Fin 2) * 2000 + 1 * (j 0).val = win0_7.index t (0 : Fin 2) * 2000 + 1 * (j 0).val; omega
    | ⟨1, _⟩ => show win0_0.index t (1 : Fin 2) * 128 + 1 * k.val = k.val; omega
  · show A1 (((View.whole main_v42).slice ((win0 1).rect t)).emb (ix2 ⟨(j 0).val, hj0⟩ k)) = A1 (ix2 ((((View.whole main_v43).slice ((win0 7).rect t)).emb j) 0) k)
    refine congrArg A1 (funext fun a => Fin.ext ?_)
    match a with
    | ⟨0, _⟩ => show win0_1.index t (0 : Fin 2) * 2000 + 1 * (j 0).val = win0_7.index t (0 : Fin 2) * 2000 + 1 * (j 0).val; omega
    | ⟨1, _⟩ => show win0_1.index t (1 : Fin 2) * 128 + 1 * k.val = k.val; omega
  · show A2 (((View.whole main_arg1).slice ((win0 2).rect t)).emb ((win0 7).xinj (grid0.coords t) j)) = A2 (((View.whole main_v43).slice ((win0 7).rect t)).emb j)
    refine congrArg A2 (funext fun a => Fin.ext ?_)
    match a with
    | ⟨0, _⟩ => show win0_2.index t (0 : Fin 2) * 2000 + 1 * (j 0).val = win0_7.index t (0 : Fin 2) * 2000 + 1 * (j 0).val; omega
    | ⟨1, _⟩ => show win0_2.index t (1 : Fin 2) * 128 + 1 * (j 1).val = win0_7.index t (1 : Fin 2) * 128 + 1 * (j 1).val; omega
  · funext x
    show A3 (((View.whole main_arg2).slice ((win0 3).rect t)).emb x) = A3 x
    refine congrArg A3 (funext fun a => Fin.ext ?_)
    match a with
    | ⟨0, _⟩ => show win0_3.index t (0 : Fin 2) * 128 + 1 * (x 0).val = (x 0).val; omega
    | ⟨1, _⟩ => show win0_3.index t (1 : Fin 2) * 384 + 1 * (x 1).val = (x 1).val; omega
  · funext x
    show A4 (((View.whole main_arg3).slice ((win0 4).rect t)).emb x) = A4 x
    refine congrArg A4 (funext fun a => Fin.ext ?_)
    match a with
    | ⟨0, _⟩ => show win0_4.index t (0 : Fin 1) * 384 + 1 * (x 0).val = (x 0).val; omega
  · funext x
    show A5 (((View.whole main_arg4).slice ((win0 5).rect t)).emb x) = A5 x
    refine congrArg A5 (funext fun a => Fin.ext ?_)
    match a with
    | ⟨0, _⟩ => show win0_5.index t (0 : Fin 2) * 128 + 1 * (x 0).val = (x 0).val; omega
    | ⟨1, _⟩ => show win0_5.index t (1 : Fin 2) * 384 + 1 * (x 1).val = (x 1).val; omega
  · funext x
    show A6 (((View.whole main_arg5).slice ((win0 6).rect t)).emb x) = A6 x
    refine congrArg A6 (funext fun a => Fin.ext ?_)
    match a with
    | ⟨0, _⟩ => show win0_6.index t (0 : Fin 1) * 384 + 1 * (x 0).val = (x 0).val; omega
  · exact Fin.ext (by show (j 1).val = win0_7.index t (1 : Fin 2) * 128 + 1 * (j 1).val; omega)

variable (m : (ℓ : Loc nD τ sig) → Buf (Elt Ideal) ℓ) (ρ : Dev nD → PrngReg)

/-- The cell of the seven arrays as the region finds them: the two aggregated tables the host left, and the hidden
    state, weights and biases as launched. -/
abbrev result (c : Dev nD) : S50000x128.Idx → Elt Ideal .f32 :=
  Cert.Gru.cell 50000 (V m c main_v26) (V m c main_v42) (V m c main_arg1) (V m c main_arg2) (V m c main_arg3)
    (V m c main_arg4) (V m c main_arg5)

/-- WHAT POINT t WRITES BACK is block t of `result`. -/
theorem flushed_eq (c : Dev nD) (t : Fin cfg0.N) :
    (dats m 0 c).flushed 7 t = ((cfg0.win 7).blk t).view.read (Elt Ideal) (result m c) := by
  rw [Value.flushed7]
  unfold iblk
  exact tile (V m c main_v26) (V m c main_v42) (V m c main_arg1) (V m c main_arg2) (V m c main_arg3)
    (V m c main_arg4) (V m c main_arg5) t

/-- Every element of the result array is in some point's block: row r in the block of point r / 2000. -/
theorem cover (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨-, -, -, -, -, -, -, -, -, -, -, -, e70, e71⟩ := idx_facts ⟨(i 0).val / 2000, ht⟩
  refine ⟨⟨(i 0).val / 2000, ht⟩, flush0_7 _, ?_⟩
  show i ∈ ((View.whole main_v43).slice (win0_7.rect ⟨(i 0).val / 2000, ht⟩)).set
  rw [View.set_slice_whole, Rect.mem_set_unit]
  intro a
  match a with
  | ⟨0, _⟩ =>
    show win0_7.index ⟨(i 0).val / 2000, ht⟩ (0 : Fin 2) * 2000 ≤ (i 0).val
      ∧ (i 0).val < win0_7.index ⟨(i 0).val / 2000, ht⟩ (0 : Fin 2) * 2000 + 2000
    rw [e70]; show (i 0).val / 2000 * 2000 ≤ (i 0).val ∧ (i 0).val < (i 0).val / 2000 * 2000 + 2000; omega
  | ⟨1, _⟩ =>
    show win0_7.index ⟨(i 0).val / 2000, ht⟩ (1 : Fin 2) * 128 ≤ (i 1).val
      ∧ (i 1).val < win0_7.index ⟨(i 0).val / 2000, ht⟩ (1 : Fin 2) * 128 + 128
    rw [e71]; omega

/-- THE RESULT ARRAY after the run is `result`. -/
theorem final (c : Dev nD) : (dats m 0 c).arrAt 7 cfg0.N = result m c :=
  (dats m 0 c).arrAt_eq_of_cover 7 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v43) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.Gru.Blocks

end
-- ==== Proof.GruPrefix.lean ====
/-
  The two aggregated tables the kernel's windows read are the reference's.

  Before the fused cell both programs run the same graph convolution twice on the host, once on the node features and once
  on the previous hidden state: the out-degree and in-degree of every node (a scatter-add of ones along the source and the
  destination lists), their inverse square roots after clamping below at one, the table scaled row by row with the source
  norm, gathered along the edges' sources, summed into the edges' destinations, and scaled row by row with the destination
  norm. The kernel's program leaves the two results in the arrays its first two windows stage; the reference's program
  feeds them to its two matrix products. The operations are the same in the same order on the same arguments, so what the
  region finds in those two arrays is, as a term of the argument arrays, the reference's stage — and neither side's
  convolution is ever opened: it is carried whole, as one function of the features, the sources and the destinations.
-/
import proofs.«139402_j29764123361454_1_alg».proof.Proof.Gen.KernelIdeal.Frame
import proofs.«139402_j29764123361454_1_alg».proof.Proof.Gen.ReferenceIdeal.Read
import Idealize.ShloMosaic.Lib.StableHlo.Run

set_option maxRecDepth 16384

noncomputable section

namespace Cert.Gru.Prefix

open Idealize.ShloMosaic Idealize.ShloMosaic.TcCoe Idealize.SL.Sem Idealize.ShloMosaic.StableHlo
open Cert.KernelIdeal Cert.KernelIdeal.Gen

variable {F : FTy → Type} [FloatOps F]

/-- The array the first window stages holds the convolution of the node features: the reference's aggregated table of
    the features, the sources and the destinations. -/
theorem aggI_eq (m : (ℓ : Loc nD τ sig) → Buf (Elt F) ℓ) (c : Dev nD) :
    (V m c main_v26 : (⟨S50000x128, .f32⟩ : BufTy).Contents (Elt F))
      = Cert.ReferenceIdeal.Read.val_main_v26 (F := F) (m ((c : Thread nD τ).loc main_arg0))
          (m ((c : Thread nD τ).loc main_arg6)) (m ((c : Thread nD τ).loc main_arg7)) := by
  dsimp only [V]
  simp only [hostOps0, hostOps0_1, hostOps0_2, hostOps0_3, hostOps0_4, List.flatten_cons, List.flatten_nil,
    List.append_nil, List.cons_append, List.nil_append]
  after_results_simp
  rfl

/-- The array the second window stages holds the convolution of the previous hidden state: the reference's aggregated
    table of the hidden state, the sources and the destinations. -/
theorem aggH_eq (m : (ℓ : Loc nD τ sig) → Buf (Elt F) ℓ) (c : Dev nD) :
    (V m c main_v42 : (⟨S50000x128, .f32⟩ : BufTy).Contents (Elt F))
      = Cert.ReferenceIdeal.Read.val_main_v46 (F := F) (m ((c : Thread nD τ).loc main_arg1))
          (m ((c : Thread nD τ).loc main_arg6)) (m ((c : Thread nD τ).loc main_arg7)) := by
  dsimp only [V]
  simp only [hostOps0, hostOps0_1, hostOps0_2, hostOps0_3, hostOps0_4, List.flatten_cons, List.flatten_nil,
    List.append_nil, List.cons_append, List.nil_append]
  after_results_simp
  rfl

end Cert.Gru.Prefix

end
-- ==== Proof.GruRef.lean ====
/-
  The reference computes the cell of GruSpec on its two aggregated tables.

  After the two graph convolutions the reference multiplies each aggregated table [50000, 128] by its weights
  [128, 384] in one product, adds the bias repeated over the 50000 rows, splits the 384 columns into three bands of 128,
  and combines them: the two gates as 1 / (1 + exp(-x)) — which is the logistic function, the literal 1.0 being the
  number one —, the candidate by tanh, and the blend with the previous hidden state.

  Read at node p and column q, one stage at a time: a band of a [50000, 384] table at (p, q) is the table at
  (p, 128 * band + q); the product at (p, j) is the sum over k of aggregated(p, k) * W(k, j); the bias table at (p, j) is
  b(j). So a linear layer's output at (p, j) is the layer of GruSpec on row p of the aggregated table, and the result at
  (p, q) is the cell on those rows. The aggregated tables themselves are carried whole: the convolution is never opened.
-/
import proofs.«139402_j29764123361454_1_alg».proof.Proof.Gen.ReferenceIdeal.Read
import proofs.«139402_j29764123361454_1_alg».proof.Proof.GruSpec

noncomputable section

open scoped BigOperators

namespace Cert.Gru.Ref

open Cert.ReferenceIdeal Cert.ReferenceIdeal.Read Idealize.ShloMosaic Idealize.ShloMosaic.ValueIdx

/-- The features' linear layer at node p and column j: the layer on row p of the features' aggregated table. -/
theorem lin_features (x0 : (⟨S50000x128, .f32⟩ : BufTy).Contents (Elt Ideal)) (x2 : (⟨S128x384, .f32⟩ : BufTy).Contents (Elt Ideal))
    (x3 : (⟨S384, .f32⟩ : BufTy).Contents (Elt Ideal)) (x6 x7 : (⟨S800000, .i32⟩ : BufTy).Contents (Elt Ideal)) (p : Fin 50000) (j : Fin 384) :
    val_main_v30 (F := Ideal) x0 x2 x3 x6 x7 (ix2 p j)
      = Cert.Gru.lin (fun k => val_main_v26 (F := Ideal) x0 x6 x7 (ix2 p k)) x2 x3 j := by
  rw [val_main_v30_apply, val_main_v27_apply, val_main_v29_apply, val_main_v28_apply]
  have e1 : ∀ k : Fin 128, lidx_main_v27 (ix2 p j) k = ix2 p k := fun k => funext fun a => Fin.ext (by match a with | ⟨0, _⟩ => rfl | ⟨1, _⟩ => rfl)
  have e2 : ∀ k : Fin 128, ridx_main_v27 (ix2 p j) k = ix2 k j := fun k => funext fun a => Fin.ext (by match a with | ⟨0, _⟩ => rfl | ⟨1, _⟩ => rfl)
  have e3 : idx_main_v28 (idx_main_v29 (ix2 p j)) = ix1 j := funext fun a => Fin.ext (by match a with | ⟨0, _⟩ => rfl)
  generalize val_main_v26 (F := Ideal) x0 x6 x7 = A
  simp only [e1, e2, e3, Cert.Gru.lin, Ideal.addf_def]

/-- The hidden state's linear layer at node p and column j: the layer on row p of the hidden state's aggregated table. -/
theorem lin_hidden (x1 : (⟨S50000x128, .f32⟩ : BufTy).Contents (Elt Ideal)) (x4 : (⟨S128x384, .f32⟩ : BufTy).Contents (Elt Ideal))
    (x5 : (⟨S384, .f32⟩ : BufTy).Contents (Elt Ideal)) (x6 x7 : (⟨S800000, .i32⟩ : BufTy).Contents (Elt Ideal)) (p : Fin 50000) (j : Fin 384) :
    val_main_v50 (F := Ideal) x1 x4 x5 x6 x7 (ix2 p j)
      = Cert.Gru.lin (fun k => val_main_v46 (F := Ideal) x1 x6 x7 (ix2 p k)) x4 x5 j := by
  rw [val_main_v50_apply, val_main_v47_apply, val_main_v49_apply, val_main_v48_apply]
  have e1 : ∀ k : Fin 128, lidx_main_v47 (ix2 p j) k = ix2 p k := fun k => funext fun a => Fin.ext (by match a with | ⟨0, _⟩ => rfl | ⟨1, _⟩ => rfl)
  have e2 : ∀ k : Fin 128, ridx_main_v47 (ix2 p j) k = ix2 k j := fun k => funext fun a => Fin.ext (by match a with | ⟨0, _⟩ => rfl | ⟨1, _⟩ => rfl)
  have e3 : idx_main_v48 (idx_main_v49 (ix2 p j)) = ix1 j := funext fun a => Fin.ext (by match a with | ⟨0, _⟩ => rfl)
  generalize val_main_v46 (F := Ideal) x1 x6 x7 = A
  simp only [e1, e2, e3, Cert.Gru.lin, Ideal.addf_def]

/-- The reset gate at node p and column q: the logistic function of the two layers' first band. -/
theorem reset_gate
    (x0 x1 : (⟨S50000x128, .f32⟩ : BufTy).Contents (Elt Ideal)) (x2 : (⟨S128x384, .f32⟩ : BufTy).Contents (Elt Ideal))
    (x3 : (⟨S384, .f32⟩ : BufTy).Contents (Elt Ideal)) (x4 : (⟨S128x384, .f32⟩ : BufTy).Contents (Elt Ideal))
    (x5 : (⟨S384, .f32⟩ : BufTy).Contents (Elt Ideal)) (x6 x7 : (⟨S800000, .i32⟩ : BufTy).Contents (Elt Ideal)) (p : Fin 50000) (q : Fin 128) :
    val_main_v63 (F := Ideal) x0 x1 x2 x3 x4 x5 x6 x7 (ix2 p q)
      = Ideal.logistic (Cert.Gru.lin (fun k => val_main_v26 (F := Ideal) x0 x6 x7 (ix2 p k)) x2 x3 (Cert.Gru.band0 q)
          + Cert.Gru.lin (fun k => val_main_v46 (F := Ideal) x1 x6 x7 (ix2 p k)) x4 x5 (Cert.Gru.band0 q)) := by
  have b0 : idx_main_v51 (ix2 p q) = ix2 p (Cert.Gru.band0 q) := funext fun a => Fin.ext (by match a with | ⟨0, _⟩ => rfl | ⟨1, _⟩ => rfl)
  have b3 : idx_main_v54 (ix2 p q) = ix2 p (Cert.Gru.band0 q) := funext fun a => Fin.ext (by match a with | ⟨0, _⟩ => rfl | ⟨1, _⟩ => rfl)
  rw [val_main_v63_apply, val_main_v62_apply, val_main_cst_10_apply, val_main_v61_apply, val_main_v60_apply,
    val_main_cst_9_apply, val_main_v59_apply, val_main_v58_apply, val_main_v57_apply, val_main_v51_apply, val_main_v54_apply,
    b0, b3, lin_features, lin_hidden]
  generalize Cert.Gru.lin (fun k => val_main_v26 (F := Ideal) x0 x6 x7 (ix2 p k)) x2 x3 (Cert.Gru.band0 q) = a
  generalize Cert.Gru.lin (fun k => val_main_v46 (F := Ideal) x1 x6 x7 (ix2 p k)) x4 x5 (Cert.Gru.band0 q) = b
  exact Cert.Gru.logistic_spelt (a + b)

/-- The update gate at node p and column q: the logistic function of the two layers' second band. -/
theorem update_gate
    (x0 x1 : (⟨S50000x128, .f32⟩ : BufTy).Contents (Elt Ideal)) (x2 : (⟨S128x384, .f32⟩ : BufTy).Contents (Elt Ideal))
    (x3 : (⟨S384, .f32⟩ : BufTy).Contents (Elt Ideal)) (x4 : (⟨S128x384, .f32⟩ : BufTy).Contents (Elt Ideal))
    (x5 : (⟨S384, .f32⟩ : BufTy).Contents (Elt Ideal)) (x6 x7 : (⟨S800000, .i32⟩ : BufTy).Contents (Elt Ideal)) (p : Fin 50000) (q : Fin 128) :
    val_main_v70 (F := Ideal) x0 x1 x2 x3 x4 x5 x6 x7 (ix2 p q)
      = Ideal.logistic (Cert.Gru.lin (fun k => val_main_v26 (F := Ideal) x0 x6 x7 (ix2 p k)) x2 x3 (Cert.Gru.band1 q)
          + Cert.Gru.lin (fun k => val_main_v46 (F := Ideal) x1 x6 x7 (ix2 p k)) x4 x5 (Cert.Gru.band1 q)) := by
  have b1 : idx_main_v52 (ix2 p q) = ix2 p (Cert.Gru.band1 q) := funext fun a => Fin.ext (by match a with | ⟨0, _⟩ => rfl | ⟨1, _⟩ => rfl)
  have b4 : idx_main_v55 (ix2 p q) = ix2 p (Cert.Gru.band1 q) := funext fun a => Fin.ext (by match a with | ⟨0, _⟩ => rfl | ⟨1, _⟩ => rfl)
  rw [val_main_v70_apply, val_main_v69_apply, val_main_cst_12_apply, val_main_v68_apply, val_main_v67_apply,
    val_main_cst_11_apply, val_main_v66_apply, val_main_v65_apply, val_main_v64_apply, val_main_v52_apply, val_main_v55_apply,
    b1, b4, lin_features, lin_hidden]
  generalize Cert.Gru.lin (fun k => val_main_v26 (F := Ideal) x0 x6 x7 (ix2 p k)) x2 x3 (Cert.Gru.band1 q) = a
  generalize Cert.Gru.lin (fun k => val_main_v46 (F := Ideal) x1 x6 x7 (ix2 p k)) x4 x5 (Cert.Gru.band1 q) = b
  exact Cert.Gru.logistic_spelt (a + b)

/-- The candidate state at node p and column q: tanh of the features' third band plus the reset gate times the hidden
    state's third band. -/
theorem candidate
    (x0 x1 : (⟨S50000x128, .f32⟩ : BufTy).Contents (Elt Ideal)) (x2 : (⟨S128x384, .f32⟩ : BufTy).Contents (Elt Ideal))
    (x3 : (⟨S384, .f32⟩ : BufTy).Contents (Elt Ideal)) (x4 : (⟨S128x384, .f32⟩ : BufTy).Contents (Elt Ideal))
    (x5 : (⟨S384, .f32⟩ : BufTy).Contents (Elt Ideal)) (x6 x7 : (⟨S800000, .i32⟩ : BufTy).Contents (Elt Ideal)) (p : Fin 50000) (q : Fin 128) :
    val_main_v73 (F := Ideal) x0 x1 x2 x3 x4 x5 x6 x7 (ix2 p q)
      = Ideal.tanh (Cert.Gru.lin (fun k => val_main_v26 (F := Ideal) x0 x6 x7 (ix2 p k)) x2 x3 (Cert.Gru.band2 q)
          + Ideal.logistic (Cert.Gru.lin (fun k => val_main_v26 (F := Ideal) x0 x6 x7 (ix2 p k)) x2 x3 (Cert.Gru.band0 q)
              + Cert.Gru.lin (fun k => val_main_v46 (F := Ideal) x1 x6 x7 (ix2 p k)) x4 x5 (Cert.Gru.band0 q))
            * Cert.Gru.lin (fun k => val_main_v46 (F := Ideal) x1 x6 x7 (ix2 p k)) x4 x5 (Cert.Gru.band2 q)) := by
  have b2 : idx_main_v53 (ix2 p q) = ix2 p (Cert.Gru.band2 q) := funext fun a => Fin.ext (by match a with | ⟨0, _⟩ => rfl | ⟨1, _⟩ => rfl)
  have b5 : idx_main_v56 (ix2 p q) = ix2 p (Cert.Gru.band2 q) := funext fun a => Fin.ext (by match a with | ⟨0, _⟩ => rfl | ⟨1, _⟩ => rfl)
  rw [val_main_v73_apply, val_main_v72_apply, val_main_v71_apply, reset_gate, val_main_v53_apply, val_main_v56_apply,
    b2, b5, lin_features, lin_hidden]
  generalize Cert.Gru.lin (fun k => val_main_v26 (F := Ideal) x0 x6 x7 (ix2 p k)) x2 x3 (Cert.Gru.band2 q) = a2
  generalize Cert.Gru.lin (fun k => val_main_v26 (F := Ideal) x0 x6 x7 (ix2 p k)) x2 x3 (Cert.Gru.band0 q) = a0
  generalize Cert.Gru.lin (fun k => val_main_v46 (F := Ideal) x1 x6 x7 (ix2 p k)) x4 x5 (Cert.Gru.band0 q) = c0
  generalize Cert.Gru.lin (fun k => val_main_v46 (F := Ideal) x1 x6 x7 (ix2 p k)) x4 x5 (Cert.Gru.band2 q) = c2
  rfl

/-- THE REFERENCE'S RESULT, as a function of the argument arrays, is the cell on its two aggregated tables, the previous
    hidden state and the two layers. -/
theorem reference_is_cell
    (x0 x1 : (⟨S50000x128, .f32⟩ : BufTy).Contents (Elt Ideal)) (x2 : (⟨S128x384, .f32⟩ : BufTy).Contents (Elt Ideal))
    (x3 : (⟨S384, .f32⟩ : BufTy).Contents (Elt Ideal)) (x4 : (⟨S128x384, .f32⟩ : BufTy).Contents (Elt Ideal))
    (x5 : (⟨S384, .f32⟩ : BufTy).Contents (Elt Ideal)) (x6 x7 : (⟨S800000, .i32⟩ : BufTy).Contents (Elt Ideal)) :
    val_main_v78 (F := Ideal) x0 x1 x2 x3 x4 x5 x6 x7
      = Cert.Gru.cell 50000 (val_main_v26 (F := Ideal) x0 x6 x7) (val_main_v46 (F := Ideal) x1 x6 x7) x1 x2 x3 x4 x5 := by
  funext i
  obtain ⟨p, q, rfl⟩ : ∃ (p : Fin 50000) (q : Fin 128), i = ix2 p q := ⟨i 0, i 1, eq_ix2 i⟩
  rw [Cert.Gru.cell_apply, val_main_v78_apply, val_main_v76_apply, val_main_v77_apply, val_main_v75_apply, val_main_v74_apply,
    val_main_cst_13_apply, update_gate, candidate]
  unfold Cert.Gru.gate
  generalize Cert.Gru.lin (fun k => val_main_v26 (F := Ideal) x0 x6 x7 (ix2 p k)) x2 x3 (Cert.Gru.band0 q) = a0
  generalize Cert.Gru.lin (fun k => val_main_v26 (F := Ideal) x0 x6 x7 (ix2 p k)) x2 x3 (Cert.Gru.band1 q) = a1
  generalize Cert.Gru.lin (fun k => val_main_v26 (F := Ideal) x0 x6 x7 (ix2 p k)) x2 x3 (Cert.Gru.band2 q) = a2
  generalize Cert.Gru.lin (fun k => val_main_v46 (F := Ideal) x1 x6 x7 (ix2 p k)) x4 x5 (Cert.Gru.band0 q) = c0
  generalize Cert.Gru.lin (fun k => val_main_v46 (F := Ideal) x1 x6 x7 (ix2 p k)) x4 x5 (Cert.Gru.band1 q) = c1
  generalize Cert.Gru.lin (fun k => val_main_v46 (F := Ideal) x1 x6 x7 (ix2 p k)) x4 x5 (Cert.Gru.band2 q) = c2
  rfl

end Cert.Gru.Ref

end
-- ==== Proof.lean ====
/-
  A gated recurrent cell over a graph: the fused kernel against its plain reference, on the extended reals.

  Both programs first run, on the host, the same graph convolution on the node features and on the previous hidden state
  (degrees by scatter-add, inverse square roots of the clamped degrees, a row scaling, a gather along the edges' sources, a
  scatter-add into the edges' destinations, a second row scaling). They differ in what follows. The reference multiplies
  each aggregated table [50000, 128] by its weights [128, 384], adds the bias, splits the 384 columns into the reset, update
  and candidate bands, and blends: out = (1 - z) * n + z * hx with r, z logistic and n = tanh(i_n + r * h_n). The kernel
  does all of that in one launch over 25 tiles of 2000 rows, with the matrix products on the matrix unit in bf16.

  On the extended reals the two are one function. Rounding to bf16 is the identity; a product into a zero accumulator
  and the host's contraction are the same sum over the 128 features in the same order; the kernel's one-operation
  logistic is the reference's 1 / (1 + exp(-x)), the literal 1.0 being the number one; a row of the result depends on
  the same row of the three tables only, so the tiles are blocks of one table; and the 25 blocks cover the 50000 rows.
  No sum is regrouped and no factor moved across a sum, so finiteness of the inputs is never used.

  The pieces: GruSpec (the cell as one function, element by element), GruPayload (the kernel's stored value at an
  element), GruBlocks (from tiles to the whole result array), GruPrefix (the arrays the kernel's first two windows read are
  the reference's aggregated tables), GruRef (the reference's result is the cell); here, the frames and the two runs set
  side by side.
-/
import proofs.«139402_j29764123361454_1_alg».proof.Defs
import proofs.«139402_j29764123361454_1_alg».proof.Proof.Gen.Kernel
import proofs.«139402_j29764123361454_1_alg».proof.Proof.Gen.Kernel.Skeleton
import proofs.«139402_j29764123361454_1_alg».proof.Proof.Gen.Kernel.Launch
import proofs.«139402_j29764123361454_1_alg».proof.Proof.Gen.Kernel.Points
import proofs.«139402_j29764123361454_1_alg».proof.Proof.Gen.Kernel.Frame
import proofs.«139402_j29764123361454_1_alg».proof.Proof.Gen.KernelIdeal
import proofs.«139402_j29764123361454_1_alg».proof.Proof.Gen.KernelIdeal.Skeleton
import proofs.«139402_j29764123361454_1_alg».proof.Proof.Gen.KernelIdeal.Launch
import proofs.«139402_j29764123361454_1_alg».proof.Proof.Gen.KernelIdeal.Points
import proofs.«139402_j29764123361454_1_alg».proof.Proof.Gen.KernelIdeal.Frame
import proofs.«139402_j29764123361454_1_alg».proof.Proof.Gen.ReferenceIdeal
import proofs.«139402_j29764123361454_1_alg».proof.Proof.Gen.Pre_finite_inputs
import proofs.«139402_j29764123361454_1_alg».proof.Proof.Gen.KernelIdeal.Value
import proofs.«139402_j29764123361454_1_alg».proof.Proof.Gen.ReferenceIdeal.Run
import proofs.«139402_j29764123361454_1_alg».proof.Proof.Gen.ReferenceIdeal.Read
import proofs.«139402_j29764123361454_1_alg».proof.Proof.GruSpec
import proofs.«139402_j29764123361454_1_alg».proof.Proof.GruPayload
import proofs.«139402_j29764123361454_1_alg».proof.Proof.GruBlocks
import proofs.«139402_j29764123361454_1_alg».proof.Proof.GruPrefix
import proofs.«139402_j29764123361454_1_alg».proof.Proof.GruRef
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The kernel's result array as a function of its ARGUMENTS: the cell on the reference's two aggregated tables of the
    features, the hidden state, the sources and the destinations, on the hidden state, and on the two layers. -/
theorem result_eq (m : (ℓ : Loc Cert.KernelIdeal.nD Cert.KernelIdeal.τ Cert.KernelIdeal.sig) → Buf (Elt Ideal) ℓ)
    (c : Dev Cert.KernelIdeal.nD) :
    Cert.Gru.Blocks.result m c
      = Cert.Gru.cell 50000
          (Cert.ReferenceIdeal.Read.val_main_v26 (F := Ideal) (m ((c : Thread Cert.KernelIdeal.nD Cert.KernelIdeal.τ).loc Cert.KernelIdeal.main_arg0)) (m ((c : Thread Cert.KernelIdeal.nD Cert.KernelIdeal.τ).loc Cert.KernelIdeal.main_arg6)) (m ((c : Thread Cert.KernelIdeal.nD Cert.KernelIdeal.τ).loc Cert.KernelIdeal.main_arg7)))
          (Cert.ReferenceIdeal.Read.val_main_v46 (F := Ideal) (m ((c : Thread Cert.KernelIdeal.nD Cert.KernelIdeal.τ).loc Cert.KernelIdeal.main_arg1)) (m ((c : Thread Cert.KernelIdeal.nD Cert.KernelIdeal.τ).loc Cert.KernelIdeal.main_arg6)) (m ((c : Thread Cert.KernelIdeal.nD Cert.KernelIdeal.τ).loc Cert.KernelIdeal.main_arg7)))
          (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) := by
  show Cert.Gru.cell 50000 (Cert.KernelIdeal.Gen.V m c Cert.KernelIdeal.main_v26) (Cert.KernelIdeal.Gen.V m c Cert.KernelIdeal.main_v42)
      (Cert.KernelIdeal.Gen.V m c Cert.KernelIdeal.main_arg1) (Cert.KernelIdeal.Gen.V m c Cert.KernelIdeal.main_arg2)
      (Cert.KernelIdeal.Gen.V m c Cert.KernelIdeal.main_arg3) (Cert.KernelIdeal.Gen.V m c Cert.KernelIdeal.main_arg4)
      (Cert.KernelIdeal.Gen.V m c Cert.KernelIdeal.main_arg5) = _
  rw [Cert.Gru.Prefix.aggI_eq, Cert.Gru.Prefix.aggH_eq, Cert.KernelIdeal.Gen.V_main_arg1, Cert.KernelIdeal.Gen.V_main_arg2,
    Cert.KernelIdeal.Gen.V_main_arg3, Cert.KernelIdeal.Gen.V_main_arg4, Cert.KernelIdeal.Gen.V_main_arg5]

/-- From memories that agree on the arguments, the kernel's result array and the reference's result end equal: both are
    the cell on the same aggregated tables, hidden state and layers. -/
theorem algebraic : Cert.algebraic_KernelIdeal_ReferenceIdeal := by
  intro m ρ m' ρ' _ hagree
  refine ⟨fun c => Cert.Gru.Blocks.result m c, Cert.Gru.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  show Cert.ReferenceIdeal.Value.res_main_v78 m' c = Cert.Gru.Blocks.result m c
  rw [Cert.ReferenceIdeal.Read.val_main_v78_eq, Cert.Gru.Ref.reference_is_cell, h0, h1, h2, h3, h4, h5, h6, h7]
  exact (result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
